-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) (main_arg2 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  let main_v9 : FVec F S33554432 .f32 := Host.absf main_arg2
  let main_cst_2 : FVec F S_ .f32 := constant S_ .f32 0x7F800000#32
  let main_v10 : FVec F S33554432 .f32 := broadcastInDim S33554432 ![] bcast_S_S33554432 main_cst_2
  let main_v11 : IVec S33554432 1 := cmpf .olt main_v9 main_v10
  let main_c_3 : IVec S_ 1 := constantI S_ 1 1#1
  let main_v12 : IVec S_ 1 := (fun x v => Host.reduce IntOp.andi x v reducesTo_S33554432_S_d0 h_S_) main_v11 main_c_3
  let main_v13 : IVec S_ 1 := andi main_v8 main_v12
  main_v13
-- ==== Kernel.lean ====
abbrev S33554432 : Shape := ⟨1, ![33554432]⟩
abbrev S262144x128 : Shape := ⟨2, ![262144, 128]⟩
abbrev S16x128 : Shape := ⟨2, ![16, 128]⟩
abbrev S16384x128 : Shape := ⟨2, ![16384, 128]⟩
abbrev S8x128 : Shape := ⟨2, ![8, 128]⟩
abbrev S1x128 : Shape := ⟨2, ![1, 128]⟩
abbrev S128 : Shape := ⟨1, ![128]⟩
abbrev S2x8x128 : Shape := ⟨3, ![2, 8, 128]⟩
abbrev S_ : Shape := ⟨0, ![]⟩
abbrev S8 : Shape := ⟨1, ![8]⟩
abbrev S1 : Shape := ⟨1, ![1]⟩

abbrev nBuf : Space → Nat
  | .hbm => 36
  | .vmem => 9
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S262144x128, .f32⟩
  | .hbm, ⟨4, _⟩ => ⟨S262144x128, .f32⟩
  | .hbm, ⟨5, _⟩ => ⟨S262144x128, .f32⟩
  | .hbm, ⟨6, _⟩ => ⟨S16x128, .f32⟩
  | .hbm, ⟨7, _⟩ => ⟨S2x8x128, .f32⟩
  | .hbm, ⟨8, _⟩ => ⟨S_, .f32⟩
  | .hbm, ⟨9, _⟩ => ⟨S8, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S16384x128, .f32⟩
  | .local _ .vmem, ⟨5, _⟩ => ⟨S16384x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S33554432_S262144x128 : S33554432.ShapeCasts S262144x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S8x128_S1x128_0_0 : ∀ a, (![0, 0] : Fin 2 → Nat) a + S1x128.size a ≤ S8x128.size a
  h_S1x128 : 0 < S1x128.numel
  reduces_S16384x128_S128 : S16384x128.Reduces [0] S128
  shapeCasts_S128_S1x128 : S128.ShapeCasts S1x128
  shapeCasts_S1x128_S1x128 : S1x128.ShapeCasts S1x128
  inb_S8x128_S1x128_1_0 : ∀ a, (![1, 0] : Fin 2 → Nat) a + S1x128.size a ≤ S8x128.size a
  inb_S8x128_S1x128_2_0 : ∀ a, (![2, 0] : Fin 2 → Nat) a + S1x128.size a ≤ S8x128.size a
  inb_S8x128_S1x128_3_0 : ∀ a, (![3, 0] : Fin 2 → Nat) a + S1x128.size a ≤ S8x128.size a
  inb_S8x128_S1x128_4_0 : ∀ a, (![4, 0] : Fin 2 → Nat) a + S1x128.size a ≤ S8x128.size a
  inb_S8x128_S1x128_5_0 : ∀ a, (![5, 0] : Fin 2 → Nat) a + S1x128.size a ≤ S8x128.size a
  shapeCasts_S16x128_S2x8x128 : S16x128.ShapeCasts S2x8x128
  reducesTo_S2x8x128_S8_d0_2 : S2x8x128.ReducesTo [0, 2] S8
  h_S_ : 0 < S_.numel
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .f32 = 32 ∨ (Rect.block (s := S262144x128) S16384x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S262144x128.size a
  hwx0_2 : ∀ i : grid0.Coords, EltTy.bits .f32 = 32 ∨ (Rect.block (s := S262144x128) S16384x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16384x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩
abbrev S1 : Shape := ⟨1, ![1]⟩

abbrev nBuf : Space → Nat
  | .hbm => 37
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S_, .f32⟩
  | .hbm, ⟨5, _⟩ => ⟨S33554432, .f32⟩
  | .hbm, ⟨6, _⟩ => ⟨S_, .f32⟩
  | .hbm, ⟨7, _⟩ => ⟨S_, .f32⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S_, .f32⟩
  | .hbm, ⟨15, _⟩ => ⟨S33554432, .f32⟩
  | .hbm, ⟨16, _⟩ => ⟨S33554432, .f32⟩
  | .hbm, ⟨17, _⟩ => ⟨S_, .f32⟩
  | .hbm, ⟨18, _⟩ => ⟨S_, .f32⟩
  | .hbm, ⟨19, _⟩ => ⟨S33554432, .f32⟩
  | .hbm, ⟨20, _⟩ => ⟨S33554432, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel
  shapeCasts_S_S1 : S_.ShapeCasts S1

variable [Facts₀]

class Facts : Prop extends Facts₀ where

variable [Facts]
-- ==== Proof.LibRowStores.lean ====
/-
  An 8×128 buffer written one row at a time, read back.

  The kernel keeps its six running sums in the first six rows of an 8×128 buffer and updates them by storing one
  1×128 row after another.  Stores are replayed newest first: an element of row `k` reads the newest store whose
  row is `k` and ignores every store of another row.  When the oldest store filled the whole buffer with `B`,
  an element that no later store touches reads `B`.
-/
import Idealize.ShloMosaic.Lib.WritesUnit
import Idealize.ShloMosaic.Lib.Pipeline.Value
import Idealize.ShloMosaic.Lib.Exec.Geometry
import Idealize.ShloMosaic.Lib.ValueIdx

noncomputable section

namespace Cert.RowStores

open Idealize.ShloMosaic Idealize.ShloMosaic.ValueIdx

variable {sig : RefSig} {κ : Kind} {sp : Space} {e : EltTy} {Val : EltTy → Type}

/-- The buffer of running sums: eight rows of 128 lanes. -/
abbrev Acc : Shape := ⟨2, ![8, 128]⟩

/-- An element whose row is not `o` lies outside the one-row rectangle at row `o`. -/
theorem not_mem_row {off size : Fin 2 → ℕ} (inb : ∀ a, off a + size a ≤ Acc.size a) (o : ℕ) (hoff : off = ![o, 0])
    (hW : size 0 = 1) (y : Acc.Idx) (h : (y 0).val ≠ o) : y ∉ (Rect.unit (s := Acc) off size inb).set := by
  subst hoff
  rw [Rect.mem_set_unit]
  intro hall
  have h0 := hall 0
  rw [hW] at h0
  have e0 : (![o, 0] : Fin 2 → ℕ) 0 = o := rfl
  rw [e0] at h0
  omega

/-- A store of row `o` does not change what an element of another row reads. -/
theorem read_skip_row (v : View sig κ sp Acc e) (f : v.ty.Contents Val) {off size : Fin 2 → ℕ}
    (inb : ∀ a, off a + size a ≤ Acc.size a) (w : (Rect.unit (s := Acc) off size inb).shape.Idx → Val e)
    (L : List (View.Piece Val Acc e)) (y : Acc.Idx) (o : ℕ) (hoff : off = ![o, 0]) (hW : size 0 = 1)
    (h : (y 0).val ≠ o) :
    v.read Val (v.writes Val f ((⟨Rect.unit (s := Acc) off size inb, w⟩ : View.Piece Val Acc e) :: L)) y
      = v.read Val (v.writes Val f L) y :=
  View.read_writes_cons_rows_of_not_mem v f inb w L y hoff hW (by omega)

/-- An element of row `o`, lane `l`, reads the newest store of row `o` at lane `l`. -/
theorem read_hit_row (v : View sig κ sp Acc e) (f : v.ty.Contents Val) {off : Fin 2 → ℕ}
    (inb : ∀ a, off a + (![1, 128] : Fin 2 → ℕ) a ≤ Acc.size a)
    (w : (Rect.unit (s := Acc) off ![1, 128] inb).shape.Idx → Val e) (L : List (View.Piece Val Acc e)) (o : ℕ)
    (hoff : off = ![o, 0]) (k : Fin 8) (l : Fin 128) (hk : k.val = o) :
    v.read Val (v.writes Val f ((⟨Rect.unit (s := Acc) off ![1, 128] inb, w⟩ : View.Piece Val Acc e) :: L)) (ix2 k l)
      = w (ix2 (0 : Fin 1) l) :=
  View.read_writes_cons_rows_of_mem v f inb w L (ix2 k l) (ix2 (0 : Fin 1) l) hoff
    (by show k.val = o + 0; omega) rfl

/-- The whole buffer filled with `B`, then stores none of which touches `y`: `y` reads `B`. -/
theorem read_over_whole (v : View sig κ sp Acc e) (f : v.ty.Contents Val) (L : List (View.Piece Val Acc e))
    {off : Fin 2 → ℕ} (hz : off = fun _ => 0) (inb : ∀ a, off a + Acc.size a ≤ Acc.size a) (B : Acc.Idx → Val e)
    (y : Acc.Idx) (h : ∀ p ∈ L, y ∉ p.1.set) :
    v.read Val (v.writes Val f (L ++ [(⟨Rect.unit (s := Acc) off Acc.size inb, B⟩ : View.Piece Val Acc e)])) y = B y := by
  rw [View.writes_append, View.read_writes_apply_of_forall_not_mem v _ y L h]
  exact View.read_writes_cons_unit_of_mem v f inb B [] y y hz fun a => (Nat.zero_add _).symm

/-- A load of one row after such stores, none of which touches the row's elements, reads `B` there. -/
theorem readCov_over_whole [∀ e, Nonempty (Val e)] (v : View sig κ sp Acc e) (L : List (View.Piece Val Acc e))
    {offW : Fin 2 → ℕ} (hz : offW = fun _ => 0) (inbW : ∀ a, offW a + Acc.size a ≤ Acc.size a) (B : Acc.Idx → Val e)
    (r : Rect Acc) (x : r.shape.Idx) (h : ∀ p ∈ L, r.toLoadRect.idx x ∉ p.1.set) :
    v.readCov (L ++ [(⟨Rect.unit (s := Acc) offW Acc.size inbW, B⟩ : View.Piece Val Acc e)]) r.toLoadRect x
      = B (r.toLoadRect.idx x) :=
  read_over_whole v v.junk L hz inbW B _ h

end Cert.RowStores

end
-- ==== Proof.Integrands.lean ====
/-
  The six integrands of the weighted correlation, the flat reading of an argument, and the closing formula.

  With weights `n` and samples `x`, `y` (flat arrays of 33554432 numbers) the six totals are
      S₀ = ∑ n,   S₁ = ∑ n·x,   S₂ = ∑ n·y,   S₃ = ∑ n·x·x,   S₄ = ∑ n·y·y,   S₅ = ∑ x·y·n,
  and the result is  (S₀·S₅ − S₁·S₂) / (√(S₀·S₃ − S₁·S₁) · √(S₀·S₄ − S₂·S₂)).
  Both programs compute the result from the six totals by the same operations; they differ in how they add.
-/
import Idealize.ShloMosaic.PureOps.Ideal
import Idealize.ShloMosaic.Lib.ValueIdx

noncomputable section

namespace Cert.Pearson

open Idealize.ShloMosaic Idealize.ShloMosaic.ValueIdx

/-- The integrand of total `k` at one element: the weight, the weighted first and second moments and the
    weighted cross moment; rows 6 and 7 of the kernel's accumulator carry nothing. -/
def term (k : ℕ) (x y n : EReal) : EReal :=
  match k with
  | 0 => n
  | 1 => n * x
  | 2 => n * y
  | 3 => n * x * x
  | 4 => n * y * y
  | 5 => x * y * n
  | _ => 0

/-- A flat argument read at a natural-number position (zero past its end). -/
def flat (x : (⟨1, ![33554432]⟩ : Shape).Idx → EReal) (q : ℕ) : EReal :=
  if h : q < 33554432 then x (ix1 ⟨q, h⟩) else 0

/-- Integrand `k` of the three flat arguments at position `q`. -/
def ptOf (k : ℕ) (x y n : (⟨1, ![33554432]⟩ : Shape).Idx → EReal) (q : ℕ) : EReal :=
  term k (flat x q) (flat y q) (flat n q)

/-- Total `k`: the integrand added over all 33554432 positions. -/
def total (k : ℕ) (x y n : (⟨1, ![33554432]⟩ : Shape).Idx → EReal) : EReal :=
  ∑ q : Fin 33554432, ptOf k x y n q.val

/-- A sum over the indices of a flat array is the sum over its positions. -/
theorem sum_idx1 {M : Type*} [AddCommMonoid M] {N : ℕ} (f : (⟨1, ![N]⟩ : Shape).Idx → M) :
    ∑ j, f j = ∑ q : Fin N, f (ix1 q) :=
  Fintype.sum_equiv ⟨fun j => j 0, ix1, fun j => (eq_ix1 j).symm, fun _ => rfl⟩ _ _ fun j => congrArg f (eq_ix1 j)

/-- An array that is integrand `k` element by element adds up to total `k`. -/
theorem sum_integrand (k : ℕ) (x y n I : (⟨1, ![33554432]⟩ : Shape).Idx → EReal)
    (hI : ∀ j, I j = term k (x j) (y j) (n j)) : ∑ j, I j = total k x y n := by
  rw [sum_idx1]
  refine Finset.sum_congr rfl fun q _ => ?_
  rw [hI]
  unfold ptOf flat
  rw [dif_pos q.isLt, dif_pos q.isLt, dif_pos q.isLt]

/-- The closing formula, from the six totals held as rank-0 arrays to the rank-1 result of one element. -/
def corr (h : (⟨0, ![]⟩ : Shape).ShapeCasts ⟨1, ![1]⟩) (s0 s1 s2 s3 s4 s5 : FVec Ideal ⟨0, ![]⟩ .f32) :
    FVec Ideal ⟨1, ![1]⟩ .f32 :=
  shapeCast ⟨1, ![1]⟩ (Host.divf (F := Ideal) (subf (mulf s0 s5) (mulf s1 s2))
    (mulf (Host.sqrt (F := Ideal) (subf (mulf s0 s3) (mulf s1 s1)))
      (Host.sqrt (F := Ideal) (subf (mulf s0 s4) (mulf s2 s2))))) h

end Cert.Pearson

end
-- ==== Proof.Payloads.lean ====
/-
  What one grid step adds to each running sum, read lane by lane over the extended reals.

  A step sees a block of 16384 rows × 128 lanes of each of `x`, `y` and the weights `n`.  For lane `l` it adds
  to running sum number `k` the column sum over the block's rows of the `k`-th integrand:
      n,  n·x,  n·y,  (n·x)·x,  (n·y)·y,  (x·y)·n        (k = 0 … 5).
  Each new value is "old row + (0 + column sum)": the column reduction starts from the float zero, which is
  the real number 0.
-/
import proofs.«144242_j74758200754433_2_alg».proof.Proof.Gen.KernelIdeal.Skeleton
import proofs.«144242_j74758200754433_2_alg».proof.Proof.Integrands
import Idealize.ShloMosaic.PureOps.Ideal.Laws
import Idealize.ShloMosaic.Lib.ValueIdx
import Idealize.ShloMosaic.Lib.ValueLayout
import Idealize.ShloMosaic.Lib.Pipeline.Value

noncomputable section

namespace Cert.Pearson

open Idealize.ShloMosaic Idealize.ShloMosaic.ValueIdx
open Cert.KernelIdeal Cert.KernelIdeal.Gen

/-- The column sum of integrand `k` over the 16384 rows of a block, at lane `l`. -/
def colSum (k : ℕ) (x y n : FVec Ideal S16384x128 .f32) (l : Fin 128) : EReal :=
  ∑ r : Fin 16384, term k (x (ix2 r l)) (y (ix2 r l)) (n (ix2 r l))

/-- The column reduction of a block (from the float zero) reshaped to one row, at lane `l`. -/
theorem colReduce_apply (v : FVec Ideal S16384x128 .f32) (hφ : FKind.Formats .f32)
    (hacc : (0x00000000#32 : BitVec 32) = FKind.add.neutral .f32 hφ) (l : Fin 128) :
    shapeCast S1x128 (multiReduction (F := Ideal) .add [0] S128 v 0x00000000#32 reduces_S16384x128_S128 hφ hacc)
      shapeCasts_S128_S1x128 (ix2 (0 : Fin 1) l) = ∑ r : Fin 16384, v (ix2 r l) := by
  refine (shapeCast_a_1a_apply _ shapeCasts_S128_S1x128 (0 : Fin 1) l).trans ?_
  refine (Ideal.multiReduction_add_single v 0x00000000#32 reduces_S16384x128_S128 hφ hacc (ix1 l)).trans ?_
  refine Finset.sum_congr rfl fun r _ => congrArg v ?_
  funext a
  match a with
  | ⟨0, _⟩ => rfl
  | ⟨1, _⟩ => rfl

/-- A block loaded whole and cast to its own shape is the block. -/
theorem blk_self (v : Vec Ideal S16384x128 .f32) :
    shapeCast S16384x128 v shapeCasts_S16384x128_S16384x128 = v := shapeCast_self v _

/-- "old row + column reduction", recast to its own shape, at lane `l`. -/
theorem rowUpdate_apply (a : Vec Ideal S1x128 .f32) (v : FVec Ideal S16384x128 .f32) (hφ : FKind.Formats .f32)
    (hacc : (0x00000000#32 : BitVec 32) = FKind.add.neutral .f32 hφ) (l : Fin 128) :
    shapeCast S1x128 (addf a (shapeCast S1x128
        (multiReduction (F := Ideal) .add [0] S128 v 0x00000000#32 reduces_S16384x128_S128 hφ hacc) shapeCasts_S128_S1x128))
      shapeCasts_S1x128_S1x128 (ix2 (0 : Fin 1) l) = a (ix2 (0 : Fin 1) l) + ∑ r : Fin 16384, v (ix2 r l) := by
  refine (congrFun (shapeCast_self _ _) _).trans ?_
  exact congrArg (a (ix2 (0 : Fin 1) l) + ·) (colReduce_apply v hφ hacc l)

variable (x y n : Vec Ideal S16384x128 .f32) (a : Vec Ideal S1x128 .f32) (l : Fin 128)

/-- Row 0: the weights. -/
theorem pay10_apply : k0_pay10 (F := Ideal) n a (ix2 (0 : Fin 1) l) = a (ix2 (0 : Fin 1) l) + colSum 0 x y n l := by
  unfold k0_pay10 k0_pay7
  refine (rowUpdate_apply a _ _ _ l).trans (congrArg (a (ix2 (0 : Fin 1) l) + ·) ?_)
  refine Finset.sum_congr rfl fun r _ => ?_
  rw [blk_self]; rfl

/-- Row 1: weight times `x`. -/
theorem pay11_apply : k0_pay11 (F := Ideal) x n a (ix2 (0 : Fin 1) l) = a (ix2 (0 : Fin 1) l) + colSum 1 x y n l := by
  unfold k0_pay11 k0_pay8 k0_pay7 k0_pay5
  refine (rowUpdate_apply a _ _ _ l).trans (congrArg (a (ix2 (0 : Fin 1) l) + ·) ?_)
  refine Finset.sum_congr rfl fun r _ => ?_
  rw [blk_self, blk_self]; rfl

/-- Row 2: weight times `y`. -/
theorem pay12_apply : k0_pay12 (F := Ideal) y n a (ix2 (0 : Fin 1) l) = a (ix2 (0 : Fin 1) l) + colSum 2 x y n l := by
  unfold k0_pay12 k0_pay9 k0_pay7 k0_pay6
  refine (rowUpdate_apply a _ _ _ l).trans (congrArg (a (ix2 (0 : Fin 1) l) + ·) ?_)
  refine Finset.sum_congr rfl fun r _ => ?_
  rw [blk_self, blk_self]; rfl

/-- Row 3: (weight times `x`) times `x`. -/
theorem pay1_apply : k0_pay1 (F := Ideal) (k0_pay5 x) (k0_pay8 x n) a (ix2 (0 : Fin 1) l)
      = a (ix2 (0 : Fin 1) l) + colSum 3 x y n l := by
  unfold k0_pay1 k0_pay8 k0_pay7 k0_pay5
  refine (rowUpdate_apply a _ _ _ l).trans (congrArg (a (ix2 (0 : Fin 1) l) + ·) ?_)
  refine Finset.sum_congr rfl fun r _ => ?_
  rw [blk_self, blk_self]; rfl

/-- Row 4: (weight times `y`) times `y`. -/
theorem pay2_apply : k0_pay2 (F := Ideal) (k0_pay6 y) (k0_pay9 y n) a (ix2 (0 : Fin 1) l)
      = a (ix2 (0 : Fin 1) l) + colSum 4 x y n l := by
  unfold k0_pay2 k0_pay9 k0_pay7 k0_pay6
  refine (rowUpdate_apply a _ _ _ l).trans (congrArg (a (ix2 (0 : Fin 1) l) + ·) ?_)
  refine Finset.sum_congr rfl fun r _ => ?_
  rw [blk_self, blk_self]; rfl

/-- Row 5: (`x` times `y`) times the weight. -/
theorem pay3_apply : k0_pay3 (F := Ideal) (k0_pay5 x) (k0_pay6 y) (k0_pay7 n) a (ix2 (0 : Fin 1) l)
      = a (ix2 (0 : Fin 1) l) + colSum 5 x y n l := by
  unfold k0_pay3 k0_pay7 k0_pay6 k0_pay5
  refine (rowUpdate_apply a _ _ _ l).trans (congrArg (a (ix2 (0 : Fin 1) l) + ·) ?_)
  refine Finset.sum_congr rfl fun r _ => ?_
  rw [blk_self, blk_self, blk_self]; rfl

/-- The block the first step of a half stores first: zero everywhere. -/
theorem pay4_apply (j : S8x128.Idx) : k0_pay4 (F := Ideal) j = 0 := by
  unfold k0_pay4
  refine (congrFun (shapeCast_self _ _) _).trans ?_
  exact Ideal.ofBits_zero_f32

/-- Rows 6 and 7 receive nothing. -/
theorem colSum_zero (k : ℕ) (hk : 6 ≤ k) : colSum k x y n l = 0 := by
  unfold colSum
  refine Finset.sum_eq_zero fun r _ => ?_
  unfold term
  split <;> first | omega | rfl

end Cert.Pearson

end
-- ==== Proof.BodyCases.lean ====
/-
  One grid step of the kernel, as a function of the three input blocks and of the running sums it starts from.

  The first step of each half of the grid fills the 8×128 buffer of running sums with zero; every step then
  updates rows 0 … 5, one row at a time, each row by "old row + column sum of its integrand over the block", and
  copies the buffer to the output block.  Read back, the buffer after a step is, at row `k` and lane `l`,
        (what it held before, or 0 on a first step) + colSum k l,
  with nothing added in rows 6 and 7.  The output block holds the same values.
-/
import proofs.«144242_j74758200754433_2_alg».proof.Proof.Gen.KernelIdeal.Frame
import proofs.«144242_j74758200754433_2_alg».proof.Proof.LibRowStores
import proofs.«144242_j74758200754433_2_alg».proof.Proof.Payloads
import Idealize.ShloMosaic.Lib.Tactic

noncomputable section

namespace Cert.Pearson

open Idealize.ShloMosaic Idealize.ShloMosaic.TcCoe Idealize.ShloMosaic.ValueIdx Idealize.SL.Sem
open Cert.KernelIdeal Cert.KernelIdeal.Gen Cert.RowStores

/-- One grid step on the running sums: row `k`, lane `l` gains the block's column sum of integrand `k`. -/
def stepI (x y n : Vec Ideal S16384x128 .f32) (acc : Vec Ideal S8x128 .f32) : Vec Ideal S8x128 .f32 :=
  fun j => acc j + colSum (j 0).val x y n ⟨(j 1).val, idx2_lt1 j⟩

/-- The running sums a half starts from. -/
def zeroAcc : Vec Ideal S8x128 .f32 := fun _ => (0 : EReal)

theorem hz : (![0, 0] : Fin 2 → ℕ) = fun _ => 0 := funext fun a => by fin_cases a <;> rfl

/-- A whole input block loaded from its staging buffer is the block. -/
theorem blockLoad_eq (m : Memref sig .tc .vmem S16384x128 .f32) (hm : m.IsWhole) (x : Vec Ideal S16384x128 .f32) :
    View.readAt (Elt Ideal) m.view (Rect.unit ![0, 0] S16384x128.size inb_S16384x128_S16384x128_0_0).toLoadRect (hm.unread x) = x := by
  rw [View.readAt_eq_ld, hm.read_unread]
  exact View.ld_unit_zero hz _ x

/-- One row loaded from the buffer of running sums, at lane `l`. -/
theorem rowLoad_apply (m : Memref sig .tc .vmem S8x128 .f32) (hm : m.IsWhole) (acc : Vec Ideal S8x128 .f32)
    {off : Fin 2 → ℕ} (inb : ∀ a, off a + (![1, 128] : Fin 2 → ℕ) a ≤ S8x128.size a) (k : Fin 8)
    (hoff : off = ![k.val, 0]) (l : Fin 128) :
    View.readAt (Elt Ideal) m.view (Rect.unit (s := S8x128) off ![1, 128] inb).toLoadRect (hm.unread acc) (ix2 (0 : Fin 1) l)
      = acc (ix2 k l) := by
  subst hoff
  refine (congrFun (hm.read_unread acc) _).trans (congrArg acc ?_)
  funext a
  match a with
  | ⟨0, _⟩ => exact Fin.ext (by show k.val + 1 * 0 = k.val; omega)
  | ⟨1, _⟩ => exact Fin.ext (by show 0 + 1 * l.val = l.val; omega)

local macro "skip_row " o:num k:num : tactic =>
  `(tactic| (refine (read_skip_row _ _ _ _ _ _ $o rfl rfl ?_).trans ?_; exact (by decide : ($k : ℕ) ≠ $o)))
local macro "hit_row " o:num : tactic =>
  `(tactic| refine (read_hit_row _ _ _ _ _ $o rfl _ _ rfl).trans ?_)

/-! ## A later step of a half: the buffer holds the previous step's sums -/

/-- The buffer of running sums after a later step. -/
theorem core_B (c : Dev nD) (i : grid0.Coords) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a5 : Memref sig .tc .vmem S8x128 .f32) (h5 : a5.IsWhole) (a6 : Memref sig .tc .vmem S8x128 .f32) (h6 : a6.IsWhole)
    (x y n : Vec Ideal S16384x128 .f32) (acc : Vec Ideal S8x128 .f32) :
    a6.view.read (Elt Ideal) (a6.view.writes (Elt Ideal) (h6.unread acc)
      (kernelRun0_B.sl.HS0_6 (F := Ideal) c a2 h2 a3 h3 a4 h4 a6 h6 x y n acc)) = stepI x y n acc := by
  funext j
  obtain ⟨k, l, rfl⟩ : ∃ (k : Fin 8) (l : Fin 128), j = ix2 k l := ⟨j 0, j 1, eq_ix2 j⟩
  sl_unfold_words
  match k with
  | ⟨0, hk⟩ =>
    skip_row 5 0
    skip_row 4 0
    skip_row 3 0
    skip_row 2 0
    skip_row 1 0
    hit_row 0
    rw [blockLoad_eq a4 h4 n]
    refine (pay10_apply x y n _ l).trans ?_
    exact congrArg (· + colSum 0 x y n l) (rowLoad_apply a6 h6 acc _ ⟨0, by decide⟩ rfl l)
  | ⟨1, hk⟩ =>
    skip_row 5 1
    skip_row 4 1
    skip_row 3 1
    skip_row 2 1
    hit_row 1
    rw [blockLoad_eq a2 h2 x, blockLoad_eq a4 h4 n]
    refine (pay11_apply x y n _ l).trans ?_
    exact congrArg (· + colSum 1 x y n l) (rowLoad_apply a6 h6 acc _ ⟨1, by decide⟩ rfl l)
  | ⟨2, hk⟩ =>
    skip_row 5 2
    skip_row 4 2
    skip_row 3 2
    hit_row 2
    rw [blockLoad_eq a3 h3 y, blockLoad_eq a4 h4 n]
    refine (pay12_apply x y n _ l).trans ?_
    exact congrArg (· + colSum 2 x y n l) (rowLoad_apply a6 h6 acc _ ⟨2, by decide⟩ rfl l)
  | ⟨3, hk⟩ =>
    skip_row 5 3
    skip_row 4 3
    hit_row 3
    rw [blockLoad_eq a2 h2 x, blockLoad_eq a4 h4 n]
    refine (pay1_apply x y n _ l).trans ?_
    exact congrArg (· + colSum 3 x y n l) (rowLoad_apply a6 h6 acc _ ⟨3, by decide⟩ rfl l)
  | ⟨4, hk⟩ =>
    skip_row 5 4
    hit_row 4
    rw [blockLoad_eq a3 h3 y, blockLoad_eq a4 h4 n]
    refine (pay2_apply x y n _ l).trans ?_
    exact congrArg (· + colSum 4 x y n l) (rowLoad_apply a6 h6 acc _ ⟨4, by decide⟩ rfl l)
  | ⟨5, hk⟩ =>
    hit_row 5
    rw [blockLoad_eq a2 h2 x, blockLoad_eq a3 h3 y, blockLoad_eq a4 h4 n]
    refine (pay3_apply x y n _ l).trans ?_
    exact congrArg (· + colSum 5 x y n l) (rowLoad_apply a6 h6 acc _ ⟨5, by decide⟩ rfl l)
  | ⟨6, hk⟩ =>
    skip_row 5 6
    skip_row 4 6
    skip_row 3 6
    skip_row 2 6
    skip_row 1 6
    skip_row 0 6
    refine (congrFun (h6.read_unread acc) _).trans ?_
    exact (add_zero _).symm.trans (congrArg (acc (ix2 ⟨6, hk⟩ l) + ·) (colSum_zero x y n l 6 (by decide)).symm)
  | ⟨7, hk⟩ =>
    skip_row 5 7
    skip_row 4 7
    skip_row 3 7
    skip_row 2 7
    skip_row 1 7
    skip_row 0 7
    refine (congrFun (h6.read_unread acc) _).trans ?_
    exact (add_zero _).symm.trans (congrArg (acc (ix2 ⟨7, hk⟩ l) + ·) (colSum_zero x y n l 7 (by decide)).symm)

/-- What a later step leaves in the carried buffer. -/
theorem sout_B (c : Dev nD) (i : grid0.Coords) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a5 : Memref sig .tc .vmem S8x128 .f32) (h5 : a5.IsWhole) (a6 : Memref sig .tc .vmem S8x128 .f32) (h6 : a6.IsWhole) (hc : ¬cond0_0 i)
    (x y n : Vec Ideal S16384x128 .f32) (acc : Vec Ideal S8x128 .f32) :
    sout0_B_0 (F := Ideal) c i a2 h2 a3 h3 a4 h4 a5 h5 a6 h6 hc x y n acc = stepI x y n acc := by
  unfold sout0_B_0 kernelRun0_B
  dsimp only
  exact core_B c i a2 h2 a3 h3 a4 h4 a5 h5 a6 h6 x y n acc

/-- What a later step leaves in the output block: a copy of the buffer. -/
theorem out_B (c : Dev nD) (i : grid0.Coords) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a5 : Memref sig .tc .vmem S8x128 .f32) (h5 : a5.IsWhole) (a6 : Memref sig .tc .vmem S8x128 .f32) (h6 : a6.IsWhole) (hc : ¬cond0_0 i)
    (x y n : Vec Ideal S16384x128 .f32) (acc : Vec Ideal S8x128 .f32) :
    out0_B_3 (F := Ideal) c i a2 h2 a3 h3 a4 h4 a5 h5 a6 h6 hc x y n acc = stepI x y n acc := by
  unfold out0_B_3
  rw [View.read_writes_eq_canon _ _ _ (cover0_B_3 c i a2 h2 a3 h3 a4 h4 a5 h5 a6 h6 hc x y n acc)]
  unfold kernelRun0_B
  dsimp only
  rw [View.canon_unit_zero hz]
  unfold kernelRun0_B.sl.v57
  rw [View.readAt_eq_ld, View.ld_unit_zero (S := S8x128) hz]
  exact core_B c i a2 h2 a3 h3 a4 h4 a5 h5 a6 h6 x y n acc

/-! ## The first step of a half: the buffer is filled with zero first -/

/-- The first step of a half loads row 0 before it has stored into it: it reads the zero fill. -/
theorem v11_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v11 (F := Ideal) c a6 (ix2 (0 : Fin 1) l) = 0 := by
  unfold kernelRun0_A.sl.v11 kernelRun0_A.sl.HS0_1
  show View.read (Elt Ideal) a6.view (View.writes a6.view (Elt Ideal) a6.view.junk _) _ = _
  exact (read_over_whole a6.view a6.view.junk [] hz _ _ _ (by simp)).trans (pay4_apply _)

/-- The first step of a half loads row 1 before it has stored into it: it reads the zero fill. -/
theorem v18_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v18 (F := Ideal) c a4 h4 a6 n (ix2 (0 : Fin 1) l) = 0 := by
  unfold kernelRun0_A.sl.v18 kernelRun0_A.sl.HS0_2 kernelRun0_A.sl.HS0_1
  show View.read (Elt Ideal) a6.view (View.writes a6.view (Elt Ideal) a6.view.junk _) _ = _
  skip_row 0 1
  exact (read_over_whole a6.view a6.view.junk [] hz _ _ _ (by simp)).trans (pay4_apply _)

/-- The first step of a half loads row 2 before it has stored into it: it reads the zero fill. -/
theorem v25_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v25 (F := Ideal) c a2 h2 a4 h4 a6 x n (ix2 (0 : Fin 1) l) = 0 := by
  unfold kernelRun0_A.sl.v25 kernelRun0_A.sl.HS0_3 kernelRun0_A.sl.HS0_2 kernelRun0_A.sl.HS0_1
  show View.read (Elt Ideal) a6.view (View.writes a6.view (Elt Ideal) a6.view.junk _) _ = _
  skip_row 1 2
  skip_row 0 2
  exact (read_over_whole a6.view a6.view.junk [] hz _ _ _ (by simp)).trans (pay4_apply _)

/-- The first step of a half loads row 3 before it has stored into it: it reads the zero fill. -/
theorem v32_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v32 (F := Ideal) c a2 h2 a3 h3 a4 h4 a6 x y n (ix2 (0 : Fin 1) l) = 0 := by
  unfold kernelRun0_A.sl.v32 kernelRun0_A.sl.HS0_4 kernelRun0_A.sl.HS0_3 kernelRun0_A.sl.HS0_2 kernelRun0_A.sl.HS0_1
  show View.read (Elt Ideal) a6.view (View.writes a6.view (Elt Ideal) a6.view.junk _) _ = _
  skip_row 2 3
  skip_row 1 3
  skip_row 0 3
  exact (read_over_whole a6.view a6.view.junk [] hz _ _ _ (by simp)).trans (pay4_apply _)

/-- The first step of a half loads row 4 before it has stored into it: it reads the zero fill. -/
theorem v40_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v40 (F := Ideal) c a2 h2 a3 h3 a4 h4 a6 x y n (ix2 (0 : Fin 1) l) = 0 := by
  unfold kernelRun0_A.sl.v40 kernelRun0_A.sl.HS0_5 kernelRun0_A.sl.HS0_4 kernelRun0_A.sl.HS0_3 kernelRun0_A.sl.HS0_2 kernelRun0_A.sl.HS0_1
  show View.read (Elt Ideal) a6.view (View.writes a6.view (Elt Ideal) a6.view.junk _) _ = _
  skip_row 3 4
  skip_row 2 4
  skip_row 1 4
  skip_row 0 4
  exact (read_over_whole a6.view a6.view.junk [] hz _ _ _ (by simp)).trans (pay4_apply _)

/-- The first step of a half loads row 5 before it has stored into it: it reads the zero fill. -/
theorem v48_zero (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) (l : Fin 128) :
    kernelRun0_A.sl.v48 (F := Ideal) c a2 h2 a3 h3 a4 h4 a6 x y n (ix2 (0 : Fin 1) l) = 0 := by
  unfold kernelRun0_A.sl.v48 kernelRun0_A.sl.HS0_6 kernelRun0_A.sl.HS0_5 kernelRun0_A.sl.HS0_4 kernelRun0_A.sl.HS0_3 kernelRun0_A.sl.HS0_2 kernelRun0_A.sl.HS0_1
  show View.read (Elt Ideal) a6.view (View.writes a6.view (Elt Ideal) a6.view.junk _) _ = _
  skip_row 4 5
  skip_row 3 5
  skip_row 2 5
  skip_row 1 5
  skip_row 0 5
  exact (read_over_whole a6.view a6.view.junk [] hz _ _ _ (by simp)).trans (pay4_apply _)

/-- The buffer of running sums after the first step of a half, read through any view of the buffer's shape. -/
theorem core_A {sg : RefSig} {κ : Kind} {sp : Space} (v : View sg κ sp S8x128 .f32) (c : Dev nD) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a6 : Memref sig .tc .vmem S8x128 .f32)
    (x y n : Vec Ideal S16384x128 .f32) :
    v.read (Elt Ideal) (v.writes (Elt Ideal) v.junk
      (kernelRun0_A.sl.HS0_7 (F := Ideal) c a2 h2 a3 h3 a4 h4 a6 x y n)) = stepI x y n zeroAcc := by
  funext j
  obtain ⟨k, l, rfl⟩ : ∃ (k : Fin 8) (l : Fin 128), j = ix2 k l := ⟨j 0, j 1, eq_ix2 j⟩
  unfold kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  match k with
  | ⟨0, hk⟩ =>
    skip_row 5 0
    skip_row 4 0
    skip_row 3 0
    skip_row 2 0
    skip_row 1 0
    hit_row 0
    rw [blockLoad_eq a4 h4 n]
    refine (pay10_apply x y n _ l).trans ?_
    exact congrArg (· + colSum 0 x y n l) (v11_zero c a2 h2 a3 h3 a4 h4 a6 x y n l)
  | ⟨1, hk⟩ =>
    skip_row 5 1
    skip_row 4 1
    skip_row 3 1
    skip_row 2 1
    hit_row 1
    rw [blockLoad_eq a2 h2 x, blockLoad_eq a4 h4 n]
    refine (pay11_apply x y n _ l).trans ?_
    exact congrArg (· + colSum 1 x y n l) (v18_zero c a2 h2 a3 h3 a4 h4 a6 x y n l)
  | ⟨2, hk⟩ =>
    skip_row 5 2
    skip_row 4 2
    skip_row 3 2
    hit_row 2
    unfold kernelRun0_A.sl.r_5
    rw [blockLoad_eq a3 h3 y, blockLoad_eq a4 h4 n]
    refine (pay12_apply x y n _ l).trans ?_
    exact congrArg (· + colSum 2 x y n l) (v25_zero c a2 h2 a3 h3 a4 h4 a6 x y n l)
  | ⟨3, hk⟩ =>
    skip_row 5 3
    skip_row 4 3
    hit_row 3
    unfold kernelRun0_A.sl.r kernelRun0_A.sl.r_3
    rw [blockLoad_eq a2 h2 x, blockLoad_eq a4 h4 n]
    refine (pay1_apply x y n _ l).trans ?_
    exact congrArg (· + colSum 3 x y n l) (v32_zero c a2 h2 a3 h3 a4 h4 a6 x y n l)
  | ⟨4, hk⟩ =>
    skip_row 5 4
    hit_row 4
    unfold kernelRun0_A.sl.r_1 kernelRun0_A.sl.r_4
    rw [blockLoad_eq a3 h3 y, blockLoad_eq a4 h4 n]
    refine (pay2_apply x y n _ l).trans ?_
    exact congrArg (· + colSum 4 x y n l) (v40_zero c a2 h2 a3 h3 a4 h4 a6 x y n l)
  | ⟨5, hk⟩ =>
    hit_row 5
    unfold kernelRun0_A.sl.r kernelRun0_A.sl.r_1 kernelRun0_A.sl.r_2
    rw [blockLoad_eq a2 h2 x, blockLoad_eq a3 h3 y, blockLoad_eq a4 h4 n]
    refine (pay3_apply x y n _ l).trans ?_
    exact congrArg (· + colSum 5 x y n l) (v48_zero c a2 h2 a3 h3 a4 h4 a6 x y n l)
  | ⟨6, hk⟩ =>
    skip_row 5 6
    skip_row 4 6
    skip_row 3 6
    skip_row 2 6
    skip_row 1 6
    skip_row 0 6
    refine (read_over_whole _ _ [] hz _ _ _ (by simp)).trans ((pay4_apply _).trans ?_)
    exact (add_zero _).symm.trans (congrArg ((0 : EReal) + ·) (colSum_zero x y n l 6 (by decide)).symm)
  | ⟨7, hk⟩ =>
    skip_row 5 7
    skip_row 4 7
    skip_row 3 7
    skip_row 2 7
    skip_row 1 7
    skip_row 0 7
    refine (read_over_whole _ _ [] hz _ _ _ (by simp)).trans ((pay4_apply _).trans ?_)
    exact (add_zero _).symm.trans (congrArg ((0 : EReal) + ·) (colSum_zero x y n l 7 (by decide)).symm)

/-- What the first step of a half leaves in the carried buffer. -/
theorem sout_A (c : Dev nD) (i : grid0.Coords) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a5 : Memref sig .tc .vmem S8x128 .f32) (h5 : a5.IsWhole) (a6 : Memref sig .tc .vmem S8x128 .f32) (h6 : a6.IsWhole) (hc : cond0_0 i)
    (x y n : Vec Ideal S16384x128 .f32) :
    sout0_A_0 (F := Ideal) c i a2 h2 a3 h3 a4 h4 a5 h5 a6 h6 hc x y n = stepI x y n zeroAcc := by
  unfold sout0_A_0 kernelRun0_A
  dsimp only
  exact core_A VS0_0 c a2 h2 a3 h3 a4 h4 a6 x y n

/-- What the first step of a half leaves in the output block: a copy of the buffer. -/
theorem out_A (c : Dev nD) (i : grid0.Coords) (a2 : Memref sig .tc .vmem S16384x128 .f32) (h2 : a2.IsWhole) (a3 : Memref sig .tc .vmem S16384x128 .f32) (h3 : a3.IsWhole) (a4 : Memref sig .tc .vmem S16384x128 .f32) (h4 : a4.IsWhole) (a5 : Memref sig .tc .vmem S8x128 .f32) (h5 : a5.IsWhole) (a6 : Memref sig .tc .vmem S8x128 .f32) (h6 : a6.IsWhole) (hc : cond0_0 i)
    (x y n : Vec Ideal S16384x128 .f32) :
    out0_A_3 (F := Ideal) c i a2 h2 a3 h3 a4 h4 a5 h5 a6 h6 hc x y n = stepI x y n zeroAcc := by
  unfold out0_A_3
  rw [View.read_writes_eq_canon _ _ _ (cover0_A_3 c i a2 h2 a3 h3 a4 h4 a5 h5 a6 h6 hc x y n)]
  unfold kernelRun0_A
  dsimp only
  rw [View.canon_unit_zero hz]
  unfold kernelRun0_A.sl.v57 View.readCov
  rw [View.readAt_eq_ld, View.ld_unit_zero (S := S8x128) hz]
  exact core_A a6.view c a2 h2 a3 h3 a4 h4 a6 x y n

end Cert.Pearson

end
-- ==== Proof.Accumulate.lean ====
/-
  The running sums after each grid point.

  The grid has 16 points, 8 for each half of the rows.  Point `n` belongs to the half that starts at point
  `n - n % 8`; it is the first point of its half when `n % 8 = 0`.  After point `n` both the carried buffer and the
  output block hold, at row `k` and lane `l`, the sum over the points of the half seen so far of the block's
  column sum of integrand `k`:
        ∑ i < n % 8 + 1,  colSum k (block at point (n - n % 8) + i) l.
  This is proved by induction on the point: a first point stores "zero + its column sums", a later point adds
  its column sums to what the point before left.
-/
import proofs.«144242_j74758200754433_2_alg».proof.Proof.BodyCases

noncomputable section

namespace Cert.Pearson

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The column sum of integrand `k` over the blocks the three windows show at point `b` (zero past the grid). -/
def ptSum (c : Dev nD) (k b : ℕ) (l : Fin 128) : EReal :=
  if hb : b < cfg0.N then
    colSum k (iblk m c 0 ⟨b, hb⟩ : Vec Ideal S16384x128 .f32) (iblk m c 1 ⟨b, hb⟩ : Vec Ideal S16384x128 .f32)
      (iblk m c 2 ⟨b, hb⟩ : Vec Ideal S16384x128 .f32) l
  else 0

/-- Running sum `k` at lane `l` after point `n`: the points of `n`'s half up to `n`. -/
def halfSum (c : Dev nD) (n k : ℕ) (l : Fin 128) : EReal :=
  ∑ i ∈ Finset.range (n % 8 + 1), ptSum m c k (n - n % 8 + i) l

/-- The running sums after point `n`, as the contents of the 8×128 buffer. -/
def sumsAt (c : Dev nD) (n : ℕ) : Vec Ideal S8x128 .f32 :=
  fun j => halfSum m c n (j 0).val ⟨(j 1).val, idx2_lt1 j⟩

/-- The first point of a half: zero plus its own column sums. -/
theorem step_first (c : Dev nD) (n : ℕ) (h : n < cfg0.N) (h0 : n % 8 = 0) :
    stepI (iblk m c 0 ⟨n, h⟩ : Vec Ideal S16384x128 .f32) (iblk m c 1 ⟨n, h⟩ : Vec Ideal S16384x128 .f32)
      (iblk m c 2 ⟨n, h⟩ : Vec Ideal S16384x128 .f32) zeroAcc = sumsAt m c n := by
  funext j
  unfold stepI zeroAcc sumsAt halfSum
  rw [h0, Finset.sum_range_one, zero_add, Nat.sub_zero, Nat.add_zero]
  unfold ptSum
  rw [dif_pos h]

/-- A later point of a half: what the point before left plus its own column sums. -/
theorem step_later (c : Dev nD) (n : ℕ) (h : n < cfg0.N) (h0 : ¬n % 8 = 0) :
    stepI (iblk m c 0 ⟨n, h⟩ : Vec Ideal S16384x128 .f32) (iblk m c 1 ⟨n, h⟩ : Vec Ideal S16384x128 .f32)
      (iblk m c 2 ⟨n, h⟩ : Vec Ideal S16384x128 .f32) (sumsAt m c (n - 1)) = sumsAt m c n := by
  funext j
  unfold stepI sumsAt halfSum
  have e1 : (n - 1) % 8 + 1 = n % 8 := by omega
  have e2 : n - 1 - (n - 1) % 8 = n - n % 8 := by omega
  have e3 : n - n % 8 + n % 8 = n := by omega
  rw [e1, e2, Finset.sum_range_succ, e3]
  refine congrArg (_ + ·) ?_
  unfold ptSum
  rw [dif_pos h]

set_option maxHeartbeats 4000000 in
/-- After point `n` the output block and the carried buffer both hold the running sums of `n`'s half. -/
theorem outsAt_eq (c : Dev nD) : ∀ (n : ℕ) (h : n < cfg0.N), outsAt0 (F := Ideal) m c n h = (sumsAt m c n, sumsAt m c n)
  | 0, h => by
    rw [outsAt0_A m c ⟨0, h⟩ rfl]
    exact Prod.ext
      ((out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans
        (step_first m c 0 h rfl))
      ((sout_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) ((hcond0_0 ⟨0, h⟩).mpr rfl) (iblk m c 0 ⟨0, h⟩) (iblk m c 1 ⟨0, h⟩) (iblk m c 2 ⟨0, h⟩)).trans
        (step_first m c 0 h rfl))
  | n + 1, h => by
    by_cases h0 : (n + 1) % 8 = 0
    · rw [outsAt0_A m c ⟨n + 1, h⟩ h0]
      exact Prod.ext
        ((out_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩)).trans
          (step_first m c (n + 1) h h0))
        ((sout_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) ((hcond0_0 ⟨n + 1, h⟩).mpr h0) (iblk m c 0 ⟨n + 1, h⟩) (iblk m c 1 ⟨n + 1, h⟩) (iblk m c 2 ⟨n + 1, h⟩)).trans
          (step_first m c (n + 1) h h0))
    · rw [outsAt0_B m c ⟨n + 1, h⟩ h0]
      have ih := outsAt_eq c n (Nat.lt_of_succ_lt h)
      have ih2 : (outsAt0 (F := Ideal) m c ((⟨n + 1, h⟩ : Fin cfg0.N).val - 1)
          (Nat.lt_of_le_of_lt (Nat.sub_le _ _) (⟨n + 1, h⟩ : Fin cfg0.N).isLt)).2 = sumsAt m c (n + 1 - 1) := by
        show (outsAt0 (F := Ideal) m c n _).2 = sumsAt m c n
        rw [ih]
      rw [ih2]
      exact Prod.ext
        ((out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) (fun hh => h0 ((hcond0_0 ⟨n + 1, h⟩).mp hh)) (iblk m c 0 ⟨n + 1, h⟩) (iblk m c 1 ⟨n + 1, h⟩) (iblk m c 2 ⟨n + 1, h⟩)
          (sumsAt m c (n + 1 - 1))).trans (step_later m c (n + 1) h h0))
        ((sout_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
          (ms0_3 ⟨n + 1, h⟩) (hs0_3 ⟨n + 1, h⟩) scM0_0 (Memref.isWhole_whole _) (fun hh => h0 ((hcond0_0 ⟨n + 1, h⟩).mp hh)) (iblk m c 0 ⟨n + 1, h⟩) (iblk m c 1 ⟨n + 1, h⟩) (iblk m c 2 ⟨n + 1, h⟩)
          (sumsAt m c (n + 1 - 1))).trans (step_later m c (n + 1) h h0))

end Cert.Pearson

end
-- ==== Proof.OutArray.lean ====
/-
  The kernel's 16×128 result array, and its inputs as flat arrays.

  Row `8·h + k` of the result array is running sum `k` of half `h`, written back after the half's last point
  (point `8·h + 7`); the two write-backs fill the array.  Each input window shows, at point `t`, rows
  `16384·t … 16384·t + 16383` of its argument reshaped to 262144 rows of 128 lanes, so element (r, l) of that block
  is element `128·(16384·t + r) + l` of the flat argument.
-/
import proofs.«144242_j74758200754433_2_alg».proof.Proof.Accumulate
import Idealize.ShloMosaic.Lib.Pipeline.Value
import Idealize.ShloMosaic.Lib.StableHlo.Run

noncomputable section

namespace Cert.Pearson

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- Where each window's block sits at point `t`: the inputs move one block of rows per point, the output one block
    per half. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val / 8 ∧ win0_3.index t (1 : Fin 2) = 0 :=
  (by decide +kernel : ∀ t : Fin grid0.N, _)

/-! ## The inputs as flat arrays -/

/-- The reshape to 262144 × 128 reads row `R`, lane `l` at flat position `128·R + l`. -/
theorem reshape_apply (x : S33554432.Idx → EReal) (R : Fin 262144) (l : Fin 128) :
    shapeCast S262144x128 x shapeCasts_S33554432_S262144x128 (ix2 R l)
      = x (ix1 ⟨128 * R.val + l.val, by have := R.isLt; have := l.isLt; omega⟩) :=
  shapeCast_apply x _ _ _ (by
    rw [Shape.rowMajor_val_one, Shape.rowMajor_val_two]
    show 128 * R.val + l.val = R.val * 128 + l.val
    omega)

/-- Window 0's array is argument 0 reshaped to 262144 rows of 128 lanes. -/
theorem V_in0 (c : Dev nD) : (V m c main_v0 : S262144x128.Idx → EReal)
    = shapeCast S262144x128 (m ((c : Thread nD τ).loc main_arg0)) shapeCasts_S33554432_S262144x128 := by
  show StableHlo.after (hostOps0 (F := Ideal)) (fun b => m (c, b)) (Proc.devRef .tc main_v0) = _
  after_results
  rfl

/-- Window 1's array is argument 1 reshaped to 262144 rows of 128 lanes. -/
theorem V_in1 (c : Dev nD) : (V m c main_v1 : S262144x128.Idx → EReal)
    = shapeCast S262144x128 (m ((c : Thread nD τ).loc main_arg1)) shapeCasts_S33554432_S262144x128 := by
  show StableHlo.after (hostOps0 (F := Ideal)) (fun b => m (c, b)) (Proc.devRef .tc main_v1) = _
  after_results
  rfl

/-- Window 2's array is argument 2 reshaped to 262144 rows of 128 lanes. -/
theorem V_in2 (c : Dev nD) : (V m c main_v2 : S262144x128.Idx → EReal)
    = shapeCast S262144x128 (m ((c : Thread nD τ).loc main_arg2)) shapeCasts_S33554432_S262144x128 := by
  show StableHlo.after (hostOps0 (F := Ideal)) (fun b => m (c, b)) (Proc.devRef .tc main_v2) = _
  after_results
  rfl

/-- Element (r, l) of the block window 0 shows at point `t` is element `128·(16384·t + r) + l` of its flat argument. -/
theorem iblk0_flat (c : Dev nD) (t : Fin cfg0.N) (r : Fin 16384) (l : Fin 128) :
    (iblk m c 0 t : Vec Ideal S16384x128 .f32) (ix2 r l)
      = flat (m ((c : Thread nD τ).loc main_arg0)) (128 * (16384 * t.val + r.val) + l.val) := by
  have hN : t.val < 16 := lt_of_lt_of_eq t.isLt N_0
  have hr : r.val < 16384 := r.isLt
  have hl : l.val < 128 := l.isLt
  obtain ⟨e00, e01, e10, e11, e20, e21, -⟩ := idx_facts t
  have hR : 16384 * t.val + r.val < 262144 := by omega
  have step1 : (iblk m c 0 t : Vec Ideal S16384x128 .f32) (ix2 r l) = V m c main_v0 (ix2 ⟨16384 * t.val + r.val, hR⟩ l) := by
    unfold iblk
    rw [View.read_apply]
    show V m c main_v0 _ = V m c main_v0 _
    congr 1
    funext a
    apply Fin.ext
    match a with
    | ⟨0, _⟩ => show win0_0.index t (0 : Fin 2) * 16384 + 1 * r.val = 16384 * t.val + r.val; rw [e00]; omega
    | ⟨1, _⟩ => show win0_0.index t (1 : Fin 2) * 128 + 1 * l.val = l.val; rw [e01]; omega
  rw [step1, V_in0, reshape_apply]
  unfold flat
  rw [dif_pos (by show 128 * (16384 * t.val + r.val) + l.val < 33554432; omega)]

/-- Element (r, l) of the block window 1 shows at point `t` is element `128·(16384·t + r) + l` of its flat argument. -/
theorem iblk1_flat (c : Dev nD) (t : Fin cfg0.N) (r : Fin 16384) (l : Fin 128) :
    (iblk m c 1 t : Vec Ideal S16384x128 .f32) (ix2 r l)
      = flat (m ((c : Thread nD τ).loc main_arg1)) (128 * (16384 * t.val + r.val) + l.val) := by
  have hN : t.val < 16 := lt_of_lt_of_eq t.isLt N_0
  have hr : r.val < 16384 := r.isLt
  have hl : l.val < 128 := l.isLt
  obtain ⟨e00, e01, e10, e11, e20, e21, -⟩ := idx_facts t
  have hR : 16384 * t.val + r.val < 262144 := by omega
  have step1 : (iblk m c 1 t : Vec Ideal S16384x128 .f32) (ix2 r l) = V m c main_v1 (ix2 ⟨16384 * t.val + r.val, hR⟩ l) := by
    unfold iblk
    rw [View.read_apply]
    show V m c main_v1 _ = V m c main_v1 _
    congr 1
    funext a
    apply Fin.ext
    match a with
    | ⟨0, _⟩ => show win0_1.index t (0 : Fin 2) * 16384 + 1 * r.val = 16384 * t.val + r.val; rw [e10]; omega
    | ⟨1, _⟩ => show win0_1.index t (1 : Fin 2) * 128 + 1 * l.val = l.val; rw [e11]; omega
  rw [step1, V_in1, reshape_apply]
  unfold flat
  rw [dif_pos (by show 128 * (16384 * t.val + r.val) + l.val < 33554432; omega)]

/-- Element (r, l) of the block window 2 shows at point `t` is element `128·(16384·t + r) + l` of its flat argument. -/
theorem iblk2_flat (c : Dev nD) (t : Fin cfg0.N) (r : Fin 16384) (l : Fin 128) :
    (iblk m c 2 t : Vec Ideal S16384x128 .f32) (ix2 r l)
      = flat (m ((c : Thread nD τ).loc main_arg2)) (128 * (16384 * t.val + r.val) + l.val) := by
  have hN : t.val < 16 := lt_of_lt_of_eq t.isLt N_0
  have hr : r.val < 16384 := r.isLt
  have hl : l.val < 128 := l.isLt
  obtain ⟨e00, e01, e10, e11, e20, e21, -⟩ := idx_facts t
  have hR : 16384 * t.val + r.val < 262144 := by omega
  have step1 : (iblk m c 2 t : Vec Ideal S16384x128 .f32) (ix2 r l) = V m c main_v2 (ix2 ⟨16384 * t.val + r.val, hR⟩ l) := by
    unfold iblk
    rw [View.read_apply]
    show V m c main_v2 _ = V m c main_v2 _
    congr 1
    funext a
    apply Fin.ext
    match a with
    | ⟨0, _⟩ => show win0_2.index t (0 : Fin 2) * 16384 + 1 * r.val = 16384 * t.val + r.val; rw [e20]; omega
    | ⟨1, _⟩ => show win0_2.index t (1 : Fin 2) * 128 + 1 * l.val = l.val; rw [e21]; omega
  rw [step1, V_in2, reshape_apply]
  unfold flat
  rw [dif_pos (by show 128 * (16384 * t.val + r.val) + l.val < 33554432; omega)]

/-- Integrand `k` at flat position `q` of the three arguments of core `c`. -/
def pt (c : Dev nD) (k q : ℕ) : EReal :=
  ptOf k (m ((c : Thread nD τ).loc main_arg0)) (m ((c : Thread nD τ).loc main_arg1)) (m ((c : Thread nD τ).loc main_arg2)) q

/-- The column sum at point `b` over flat positions. -/
theorem ptSum_flat (c : Dev nD) (k b : ℕ) (hb : b < 16) (l : Fin 128) :
    ptSum m c k b l = ∑ r : Fin 16384, pt m c k (128 * (16384 * b + r.val) + l.val) := by
  have hb' : b < cfg0.N := lt_of_lt_of_eq hb N_0.symm
  unfold ptSum
  rw [dif_pos hb']
  unfold colSum
  refine Finset.sum_congr rfl fun r _ => ?_
  rw [iblk0_flat m c ⟨b, hb'⟩ r l, iblk1_flat m c ⟨b, hb'⟩ r l, iblk2_flat m c ⟨b, hb'⟩ r l]
  rfl

/-! ## The result array -/

/-- The result array: row `8·h + k`, lane `l` holds running sum `k` of half `h` after the half's last point. -/
def outArr (c : Dev nD) : S16x128.Idx → EReal :=
  fun i => halfSum m c (8 * ((i 0).val / 8) + 7) ((i 0).val % 8) ⟨(i 1).val, idx2_lt1 i⟩

theorem halfSum_congr (c : Dev nD) {n n' k k' : ℕ} {l l' : Fin 128} (hn : n = n') (hk : k = k') (hl : l.val = l'.val) :
    halfSum m c n k l = halfSum m c n' k' l' := by
  subst hn; subst hk; rw [Fin.ext hl]

/-- What a half's last point writes back is that half's block of the result array. -/
theorem flushed_eq (c : Dev nD) (t : Fin cfg0.N) (hf : (cfg0.win 3).flush t = true) :
    (dats (F := Ideal) m 0 c).flushed 3 t = ((cfg0.win 3).blk t).view.read (Elt Ideal) (outArr m c) := by
  have h7 : t.val % 8 = 7 := (flush0_3 t).mp hf
  have hN : t.val < 16 := lt_of_lt_of_eq t.isLt N_0
  show (cfg0.win 3).cut (grid0.coords t) ((dats (F := Ideal) m 0 c).after 3 t) = _
  rw [after0_3, outsAt_eq]
  obtain ⟨-, -, -, -, -, -, e0, e1⟩ := idx_facts t
  funext j
  obtain ⟨k, l, rfl⟩ : ∃ (k : Fin 8) (l : Fin 128), j = ix2 k l := ⟨j 0, j 1, eq_ix2 j⟩
  have hk : k.val < 8 := k.isLt
  have hl : l.val < 128 := l.isLt
  show halfSum m c t.val k.val l = outArr m c (((cfg0.win 3).blk t).view.emb (ix2 k l))
  unfold outArr
  refine halfSum_congr m c ?_ ?_ ?_
  · show t.val = 8 * ((win0_3.index t (0 : Fin 2) * 8 + 1 * k.val) / 8) + 7
    rw [e0]; omega
  · show k.val = (win0_3.index t (0 : Fin 2) * 8 + 1 * k.val) % 8
    rw [e0]; omega
  · show l.val = win0_3.index t (1 : Fin 2) * 128 + 1 * l.val
    rw [e1]; omega

/-- An index of the result array is in point `t`'s block iff each coordinate is in the block's range. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v3).slice (win0_3.rect t)).set ↔ _
  rw [View.set_slice_whole, Rect.mem_set_unit]
  exact Iff.rfl

/-- Every element of the result array is written back by the last point of its half. -/
theorem cover3 (i : S16x128.Idx) :
    ∃ t : Fin cfg0.N, (cfg0.win 3).flush t = true ∧ i ∈ ((cfg0.win 3).blk t).view.set := by
  have hi0 : (i 0).val < 16 := idx2_lt0 i
  have hi1 : (i 1).val < 128 := idx2_lt1 i
  have hN : cfg0.N = 16 := N_0
  have ht : 8 * ((i 0).val / 8) + 7 < cfg0.N := by rw [hN]; omega
  obtain ⟨-, -, -, -, -, -, e0, e1⟩ := idx_facts ⟨8 * ((i 0).val / 8) + 7, ht⟩
  refine ⟨⟨8 * ((i 0).val / 8) + 7, ht⟩, (flush0_3 _).mpr (by show (8 * ((i 0).val / 8) + 7) % 8 = 7; omega), ?_⟩
  rw [mem_blk3]
  intro a
  match a with
  | ⟨0, _⟩ =>
    show win0_3.index ⟨8 * ((i 0).val / 8) + 7, ht⟩ (0 : Fin 2) * 8 ≤ (i 0).val ∧ (i 0).val < win0_3.index ⟨8 * ((i 0).val / 8) + 7, ht⟩ (0 : Fin 2) * 8 + 8
    rw [e0]
    show (8 * ((i 0).val / 8) + 7) / 8 * 8 ≤ (i 0).val ∧ (i 0).val < (8 * ((i 0).val / 8) + 7) / 8 * 8 + 8
    omega
  | ⟨1, _⟩ =>
    show win0_3.index ⟨8 * ((i 0).val / 8) + 7, ht⟩ (1 : Fin 2) * 128 ≤ (i 1).val ∧ (i 1).val < win0_3.index ⟨8 * ((i 0).val / 8) + 7, ht⟩ (1 : Fin 2) * 128 + 128
    rw [e1]; omega

/-- The result array after the region. -/
theorem final_out (c : Dev nD) : (dats (F := Ideal) m 0 c).arrAt 3 cfg0.N = outArr m c :=
  (dats (F := Ideal) m 0 c).arrAt_eq_of_cover 3 (outArr m c) (flushed_eq m c) (fun i => cover3 i)

end Cert.Pearson

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.LibRegroup.lean ====
/-
  Regrouping a long sum.  A flat array of a·b·n·d numbers is cut into a·b blocks of n rows of d lanes.  The
  kernel adds, for each of the a halves and each lane, the b blocks of that half and the n rows of each block;
  the reference adds the a·b·n·d numbers in one sweep.  In a commutative additive monoid the two totals agree:
  three applications of "a sum of block sums is the whole sum" and two exchanges of the order of summation.
-/
import proofs.«144242_j74758200754433_2_alg».proof.Proof.LibBlockSum

namespace Cert.Regroup

open Cert.LibBlockSum

/-- The sum of `a` block sums of `b` consecutive terms, with the blocks indexed by `Fin a`. -/
theorem sum_blocks_fin {M : Type*} [AddCommMonoid M] (a b : ℕ) (g : ℕ → M) :
    ∑ t : Fin a, ∑ r : Fin b, g (b * t.val + r.val) = ∑ q : Fin (a * b), g q.val :=
  (Fin.sum_univ_eq_sum_range (fun t => ∑ r : Fin b, g (b * t + r.val)) a).trans (sum_blocks a b g)

/-- Halves, lanes, blocks of a half, rows of a block: position `d·(n·(b·c + i) + r) + l` runs once through
    all `a·b·n·d` positions. -/
theorem regroup4 {M : Type*} [AddCommMonoid M] (a b n d : ℕ) (g : ℕ → M) :
    ∑ c : Fin a, ∑ l : Fin d, ∑ i : Fin b, ∑ r : Fin n, g (d * (n * (b * c.val + i.val) + r.val) + l.val)
      = ∑ q : Fin (a * b * n * d), g q.val := by
  rw [← sum_blocks_fin (a * b * n) d g,
    ← sum_blocks_fin (a * b) n (fun R => ∑ l : Fin d, g (d * R + l.val)),
    ← sum_blocks_fin a b (fun B => ∑ r : Fin n, ∑ l : Fin d, g (d * (n * B + r.val) + l.val))]
  refine Finset.sum_congr rfl fun c _ => ?_
  rw [Finset.sum_comm]
  refine Finset.sum_congr rfl fun i _ => ?_
  exact Finset.sum_comm

end Cert.Regroup
-- ==== Proof.KernelSums.lean ====
/-
  The kernel's partial sums add up to the six totals.

  Row `8·h + k` of the result array holds, at lane `l`, the sum over the eight points `i` of half `h` and the
  16384 rows `r` of each point's block of integrand `k` at flat position `128·(16384·(8·h + i) + r) + l`.  Adding
  these over the two halves and the 128 lanes visits every position of the flat arrays once, so the sum is total
  `k` — a regrouping of a finite sum, valid on the extended reals because their addition is commutative and
  associative.
-/
import proofs.«144242_j74758200754433_2_alg».proof.Proof.OutArray
import proofs.«144242_j74758200754433_2_alg».proof.Proof.LibRegroup

noncomputable section

namespace Cert.Pearson

open Idealize.ShloMosaic Idealize.ShloMosaic.TcCoe Idealize.ShloMosaic.ValueIdx Idealize.SL.Sem
open Cert.KernelIdeal Cert.KernelIdeal.Gen Cert.Regroup

variable (m : (ℓ : Loc nD τ sig) → Buf (Elt Ideal) ℓ)

/-- After the last point of half `h`: the half's eight points and their blocks' rows. -/
theorem halfSum_last (c : Dev nD) (h : Fin 2) (k : ℕ) (l : Fin 128) :
    halfSum m c (8 * h.val + 7) k l
      = ∑ i : Fin 8, ∑ r : Fin 16384, pt m c k (128 * (16384 * (8 * h.val + i.val) + r.val) + l.val) := by
  have hh : h.val < 2 := h.isLt
  unfold halfSum
  have e1 : (8 * h.val + 7) % 8 + 1 = 8 := by omega
  have e2 : 8 * h.val + 7 - (8 * h.val + 7) % 8 = 8 * h.val := by omega
  rw [e1, e2, Finset.sum_range]
  refine Finset.sum_congr rfl fun i _ => ?_
  exact ptSum_flat m c k (8 * h.val + i.val) (by have := i.isLt; omega) l

/-- The result array's rows `k` and `8 + k`, added over the lanes, are total `k`. -/
theorem rows_total (c : Dev nD) (k : Fin 8) :
    ∑ h : Fin 2, ∑ l : Fin 128,
        outArr m c (ix2 ⟨8 * h.val + k.val, by have := h.isLt; have := k.isLt; omega⟩ l)
      = total k.val (m ((c : Thread nD τ).loc main_arg0)) (m ((c : Thread nD τ).loc main_arg1))
          (m ((c : Thread nD τ).loc main_arg2)) := by
  have hk : k.val < 8 := k.isLt
  have e : ∀ (h : Fin 2) (l : Fin 128),
      outArr m c (ix2 ⟨8 * h.val + k.val, by have := h.isLt; omega⟩ l)
        = ∑ i : Fin 8, ∑ r : Fin 16384, pt m c k.val (128 * (16384 * (8 * h.val + i.val) + r.val) + l.val) := by
    intro h l
    have hh : h.val < 2 := h.isLt
    rw [← halfSum_last m c h k.val l]
    show halfSum m c (8 * ((8 * h.val + k.val) / 8) + 7) ((8 * h.val + k.val) % 8) ⟨l.val, _⟩ = _
    exact halfSum_congr m c (by omega) (by omega) rfl
  rw [Finset.sum_congr rfl fun h _ => Finset.sum_congr rfl fun l _ => e h l]
  exact regroup4 2 8 16384 128 (pt m c k.val)

end Cert.Pearson

end
-- ==== Proof.Tail.lean ====
/-
  The host operations after the kernel: from the 16×128 array of partial sums to the result.

  The array is viewed as 2 halves × 8 rows × 128 lanes and added over halves and lanes, giving one number per
  row; rows 0 … 5 are the six totals, and the closing formula is applied to them.  Read at the extended reals the
  reduction of row `k` is  0 + ∑ over the halves h and the lanes l of the array at row `8·h + k`, lane `l`.
-/
import proofs.«144242_j74758200754433_2_alg».proof.Proof.Gen.KernelIdeal.Launch
import proofs.«144242_j74758200754433_2_alg».proof.Proof.Integrands
import Idealize.ShloMosaic.PureOps.Ideal.Laws
import Idealize.ShloMosaic.Lib.Pipeline.Value
import Idealize.ShloMosaic.Lib.StableHlo.Run

noncomputable section

namespace Cert.Pearson

open Idealize.ShloMosaic Idealize.ShloMosaic.TcCoe Idealize.ShloMosaic.ValueIdx Idealize.SL.Sem
open Cert.KernelIdeal Cert.KernelIdeal.Gen

/-- Row `k` of the reduced array, as a rank-0 array: the host's reshape, reduction over halves and lanes, slice and
    reshape. -/
def chanOf (O : S16x128.Idx → EReal) (k : ℕ) (hs : S8.Slices ![k] S1) : FVec Ideal S_ .f32 :=
  shapeCast S_ (extractStridedSlice S1 ![k]
    (Host.reduceAdd (F := Ideal) (shapeCast S2x8x128 O shapeCasts_S16x128_S2x8x128) (constant S_ .f32 0x00000000#32)
      reducesTo_S2x8x128_S8_d0_2 h_S_) hs) shapeCasts_S1_S_

set_option maxHeartbeats 4000000 in
/-- The host operations after the kernel compute the closing formula of the six reduced rows of whatever the
    kernel's result array holds. -/
theorem tail_ops (U : Valuation τ sig (Elt Ideal)) :
    (StableHlo.after (hostOps1 (F := Ideal)) U (Proc.devRef .tc main_v31) : S1.Idx → EReal)
      = corr shapeCasts_S_S1 (chanOf (U (Proc.devRef .tc main_v3)) 0 slices_S8_S1_0)
          (chanOf (U (Proc.devRef .tc main_v3)) 1 slices_S8_S1_1) (chanOf (U (Proc.devRef .tc main_v3)) 2 slices_S8_S1_2)
          (chanOf (U (Proc.devRef .tc main_v3)) 3 slices_S8_S1_3) (chanOf (U (Proc.devRef .tc main_v3)) 4 slices_S8_S1_4)
          (chanOf (U (Proc.devRef .tc main_v3)) 5 slices_S8_S1_5) := by
  after_results_simp <;> rfl

/-! ## A reduced row, element by element -/

/-- A one-element array cast to rank 0 reads its element. -/
theorem scalar_cast {α : Type} (v : S1.Idx → α) (h : S1.ShapeCasts S_) (i : S_.Idx) :
    shapeCast S_ v h i = v (ix1 (0 : Fin 1)) := by
  unfold shapeCast
  exact congrArg v (funext fun a => by
    match a with
    | ⟨0, _⟩ => exact Fin.ext (Nat.lt_one_iff.mp (Fin.isLt _)))

/-- A sum over the indices of a rank-3 array, middle coordinate outermost. -/
theorem sum_idx3_mid {M : Type*} [AddCommMonoid M] {a b c : ℕ} (f : (⟨3, ![a, b, c]⟩ : Shape).Idx → M) :
    ∑ i, f i = ∑ q : Fin b, ∑ p : Fin a, ∑ r : Fin c, f (ix3 p q r) :=
  (Fintype.sum_equiv (⟨fun i => (i 1, i 0, i 2), fun t => ix3 t.2.1 t.1 t.2.2, fun i => (eq_ix3 i).symm, fun _ => rfl⟩ :
      (⟨3, ![a, b, c]⟩ : Shape).Idx ≃ Fin b × Fin a × Fin c) f (fun t => f (ix3 t.2.1 t.1 t.2.2))
      (fun i => congrArg f (eq_ix3 i))).trans
    ((Fintype.sum_prod_type _).trans (Finset.sum_congr rfl fun q _ => Fintype.sum_prod_type _))

/-- Dropping the half and the lane of (half, row, lane) leaves the row. -/
theorem drop_ix3 (p : Fin 2) (q : Fin 8) (r : Fin 128) : reducesTo_S2x8x128_S8_d0_2.drop (ix3 p q r) = ix1 q := by
  funext b
  match b with
  | ⟨0, _⟩ => rfl

/-- The reduction over halves and lanes, at row `k`. -/
theorem reduce_rows (X : S2x8x128.Idx → EReal) (init : EReal) (k : Fin 8) :
    Ideal.hostReduceAdd reducesTo_S2x8x128_S8_d0_2 X init (ix1 k) = init + ∑ p : Fin 2, ∑ r : Fin 128, X (ix3 p k r) := by
  unfold Ideal.hostReduceAdd
  refine congrArg (init + ·) ?_
  rw [Finset.sum_filter, sum_idx3_mid, Finset.sum_eq_single k]
  · refine Finset.sum_congr rfl fun p _ => Finset.sum_congr rfl fun r _ => ?_
    rw [drop_ix3, if_pos rfl]
  · intro q _ hq
    refine Finset.sum_eq_zero fun p _ => Finset.sum_eq_zero fun r _ => ?_
    rw [drop_ix3, if_neg]
    intro h
    exact hq (congrFun h 0)
  · intro h
    exact absurd (Finset.mem_univ k) h

/-- The 16×128 array viewed as 2 × 8 × 128: (half, row, lane) is row `8·half + row`. -/
theorem view3_apply (O : S16x128.Idx → EReal) (p : Fin 2) (q : Fin 8) (r : Fin 128) :
    shapeCast S2x8x128 O shapeCasts_S16x128_S2x8x128 (ix3 p q r)
      = O (ix2 ⟨8 * p.val + q.val, by have := p.isLt; have := q.isLt; omega⟩ r) :=
  shapeCast_apply O _ _ _ (by
    rw [Shape.rowMajor_val_two, Shape.rowMajor_val_three]
    show (8 * p.val + q.val) * 128 + r.val = (p.val * 8 + q.val) * 128 + r.val
    omega)

/-- Reduced row `k`: zero plus the sum over the halves and the lanes of row `8·half + k`. -/
theorem chanOf_apply (O : S16x128.Idx → EReal) (k : Fin 8) (hs : S8.Slices ![k.val] S1) (i : S_.Idx) :
    chanOf O k.val hs i
      = 0 + ∑ p : Fin 2, ∑ r : Fin 128, O (ix2 ⟨8 * p.val + k.val, by have := p.isLt; have := k.isLt; omega⟩ r) := by
  unfold chanOf
  rw [scalar_cast, extractStridedSlice_apply ![k.val] _ hs (ix1 (0 : Fin 1)) (ix1 k) (fun a => by
    match a with
    | ⟨0, _⟩ => show k.val = k.val + 0; omega)]
  simp only [Host.reduceAdd, Ideal.hostReduceAdd_def]
  rw [reduce_rows]
  refine congrArg₂ (· + ·) Ideal.ofBits_zero_f32 ?_
  exact Finset.sum_congr rfl fun p _ => Finset.sum_congr rfl fun r _ => view3_apply O p k r

end Cert.Pearson

end
-- ==== Proof.KernelRun.lean ====
/-
  The kernel's run, read: its result is the closing formula of the six totals.

  After the region the 16×128 array holds the partial sums; the host operations that follow reduce it to eight
  numbers, of which the first six are  0 + total k,  and apply the closing formula.
-/
import proofs.«144242_j74758200754433_2_alg».proof.Proof.KernelSums
import proofs.«144242_j74758200754433_2_alg».proof.Proof.Tail
import Idealize.ShloMosaic.Lib.Pipeline.FrameSuffix

noncomputable section

namespace Cert.Pearson

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- A total of the kernel's three arguments held as a rank-0 array: the float zero plus the sum. -/
def totalArrK (c : Dev nD) (k : ℕ) : FVec Ideal S_ .f32 :=
  fun _ => 0 + total k (m ((c : Thread nD τ).loc main_arg0)) (m ((c : Thread nD τ).loc main_arg1))
    (m ((c : Thread nD τ).loc main_arg2))

/-- Reduced row `k` of the result array is total `k`. -/
theorem chan_eq (c : Dev nD) (k : Fin 8) (hs : S8.Slices ![k.val] S1) :
    chanOf (outArr m c) k.val hs = totalArrK m c k.val := by
  funext i
  rw [chanOf_apply]
  exact congrArg ((0 : EReal) + ·) (rows_total m c k)

/-- The kernel's result: the closing formula of the six totals. -/
def resultK (c : Dev nD) : Buf (Elt Ideal) ((c : Thread nD τ).loc main_v31) :=
  corr shapeCasts_S_S1 (totalArrK m c 0) (totalArrK m c 1) (totalArrK m c 2) (totalArrK m c 3) (totalArrK m c 4)
    (totalArrK m c 5)

/-- What the operations after the region leave in the result buffer. -/
theorem tail_eq (c : Dev nD) :
    Pipeline.afterTail₀ cfgs (dats (F := Ideal) m) 0 (V0 m) [hostOps1] c main_v31 = resultK m c := by
  unfold Pipeline.afterTail₀
  refine (tail_ops _).trans ?_
  have hW : Pipeline.withArrays (cfgs 0).spec c (V0 m c) (fun w => (dats (F := Ideal) m 0 c).arrAt w (cfgs 0).N)
      (Proc.devRef .tc main_v3) = outArr m c :=
    (Pipeline.withArrays_arr spec0 launch0.win.arr_inj c _ _ 3).trans (final_out m c)
  rw [hW]
  unfold resultK
  have e0 : chanOf (outArr m c) 0 slices_S8_S1_0 = totalArrK m c 0 := chan_eq m c 0 slices_S8_S1_0
  have e1 : chanOf (outArr m c) 1 slices_S8_S1_1 = totalArrK m c 1 := chan_eq m c 1 slices_S8_S1_1
  have e2 : chanOf (outArr m c) 2 slices_S8_S1_2 = totalArrK m c 2 := chan_eq m c 2 slices_S8_S1_2
  have e3 : chanOf (outArr m c) 3 slices_S8_S1_3 = totalArrK m c 3 := chan_eq m c 3 slices_S8_S1_3
  have e4 : chanOf (outArr m c) 4 slices_S8_S1_4 = totalArrK m c 4 := chan_eq m c 4 slices_S8_S1_4
  have e5 : chanOf (outArr m c) 5 slices_S8_S1_5 = totalArrK m c 5 := chan_eq m c 5 slices_S8_S1_5
  rw [e0, e1, e2, e3, e4, e5]

/-- The run: the result buffer at the closing formula of the six totals, the arguments unchanged. -/
theorem run : θ_run defs (onTc (τ := τ) (main (F := Ideal))) ⟨m, fun _ => 0, ρ⟩ fun r => ∀ c : Dev nD,
      r.2.mem ((c.tc : Thread nD τ).loc main_v31) = resultK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v31 (Pipeline.mem_restRefs_of main_v31 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Pearson

end
-- ==== Proof.RefSums.lean ====
/-
  The reference's six totals and its result.

  The reference adds each integrand over the whole flat arrays in one reduction starting from the float zero:
  total `k` is  0 + ∑ over all positions of integrand `k`.  Its integrands are written
      n,  n·x,  n·y,  n·(x·x),  n·(y·y),  (x·y)·n ;
  multiplication of extended reals is associative, so `n·(x·x) = (n·x)·x`, the kernel's way of writing it.
  The result is the closing formula of the six totals.
-/
import proofs.«144242_j74758200754433_2_alg».proof.Proof.Gen.ReferenceIdeal.Read
import proofs.«144242_j74758200754433_2_alg».proof.Proof.Integrands
import Idealize.ShloMosaic.Lib.ValueIdx
import Idealize.ShloMosaic.PureOps.Ideal.Laws

noncomputable section

namespace Cert.Pearson.Ref

open Idealize.ShloMosaic Idealize.ShloMosaic.ValueIdx
open Cert.ReferenceIdeal Cert.ReferenceIdeal.Gen Cert.ReferenceIdeal.Read Cert.Pearson

variable (x y n : S33554432.Idx → EReal)

/-- A total held as a rank-0 array: the float zero plus the sum. -/
def totalArr (k : ℕ) : FVec Ideal S_ .f32 := fun _ => 0 + total k x y n

theorem zero_cst : (FloatOps.ofBits (F := Ideal) .f32 0x00000000#32 : EReal) = 0 := Ideal.ofBits_zero_f32

/-- ∑ n. -/
theorem s0 : val_main_v0 (F := Ideal) n = totalArr x y n 0 := by
  funext i
  rw [val_main_v0_apply, val_main_cst_apply, zero_cst]
  exact congrArg ((0 : EReal) + ·) (sum_integrand 0 x y n n fun j => rfl)

/-- ∑ n·x. -/
theorem s1 : val_main_v2 (F := Ideal) x n = totalArr x y n 1 := by
  funext i
  rw [val_main_v2_apply, val_main_cst_0_apply, zero_cst]
  exact congrArg ((0 : EReal) + ·) (sum_integrand 1 x y n _ fun j => rfl)

/-- ∑ n·y. -/
theorem s2 : val_main_v4 (F := Ideal) y n = totalArr x y n 2 := by
  funext i
  rw [val_main_v4_apply, val_main_cst_1_apply, zero_cst]
  exact congrArg ((0 : EReal) + ·) (sum_integrand 2 x y n _ fun j => rfl)

/-- ∑ n·(x·x) = ∑ (n·x)·x. -/
theorem s3 : val_main_v7 (F := Ideal) x n = totalArr x y n 3 := by
  funext i
  rw [val_main_v7_apply, val_main_cst_2_apply, zero_cst]
  exact congrArg ((0 : EReal) + ·) (sum_integrand 3 x y n _ fun j => (mul_assoc (n j) (x j) (x j)).symm)

/-- ∑ n·(y·y) = ∑ (n·y)·y. -/
theorem s4 : val_main_v10 (F := Ideal) y n = totalArr x y n 4 := by
  funext i
  rw [val_main_v10_apply, val_main_cst_3_apply, zero_cst]
  exact congrArg ((0 : EReal) + ·) (sum_integrand 4 x y n _ fun j => (mul_assoc (n j) (y j) (y j)).symm)

/-- ∑ (x·y)·n. -/
theorem s5 : val_main_v13 (F := Ideal) x y n = totalArr x y n 5 := by
  funext i
  rw [val_main_v13_apply, val_main_cst_4_apply, zero_cst]
  exact congrArg ((0 : EReal) + ·) (sum_integrand 5 x y n _ fun j => rfl)

/-- The reference's result is the closing formula of the six totals. -/
theorem result_eq : val_main_v27 (F := Ideal) x y n
    = corr shapeCasts_S_S1 (totalArr x y n 0) (totalArr x y n 1) (totalArr x y n 2) (totalArr x y n 3)
        (totalArr x y n 4) (totalArr x y n 5) := by
  rw [← s0 x y n, ← s1 x y n, ← s2 x y n, ← s3 x y n, ← s4 x y n, ← s5 x y n]
  rfl

end Cert.Pearson.Ref

end
-- ==== Proof.lean ====
/-
  The weighted Pearson correlation of two flat arrays of 33554432 numbers, kernel against reference.

  Both programs form six totals over the arrays — of the weight n, of n·x, n·y, (n·x)·x, (n·y)·y and (x·y)·n — and
  return  (S₀·S₅ − S₁·S₂) / (√(S₀·S₃ − S₁·S₁) · √(S₀·S₄ − S₂·S₂)).

  The reference adds each integrand over the whole array in one reduction.  The kernel views each array as 262144
  rows of 128 lanes, cuts the rows into two halves of eight blocks of 16384 rows, and for each half keeps six rows
  of 128 lane-wise running sums: every grid point adds the column sums of its block, the first point of a half
  starting from zero.  The two halves' rows are written to a 16×128 array, which the host code adds over halves
  and lanes before applying the same closing formula.

  Over the extended reals the two ways of adding agree: addition there is commutative and associative, so a finite
  sum may be regrouped freely, and multiplication is associative, so n·(x·x) = (n·x)·x.  No finiteness of the inputs
  is needed for this, and the precondition is not used.

  The kernel and its idealization run and leave their arguments unchanged by the generated frame proofs; the
  reference's run is the generated one; the idealization rewrote nothing, so the preservation claim is trivial.
-/
import proofs.«144242_j74758200754433_2_alg».proof.Defs
import proofs.«144242_j74758200754433_2_alg».proof.Proof.Gen.Kernel
import proofs.«144242_j74758200754433_2_alg».proof.Proof.Gen.Kernel.Frame
import proofs.«144242_j74758200754433_2_alg».proof.Proof.Gen.KernelIdeal
import proofs.«144242_j74758200754433_2_alg».proof.Proof.Gen.KernelIdeal.Frame
import proofs.«144242_j74758200754433_2_alg».proof.Proof.Gen.ReferenceIdeal
import proofs.«144242_j74758200754433_2_alg».proof.Proof.Gen.ReferenceIdeal.Run
import proofs.«144242_j74758200754433_2_alg».proof.Proof.Gen.ReferenceIdeal.Read
import proofs.«144242_j74758200754433_2_alg».proof.Proof.Gen.Pre_finite_inputs
import proofs.«144242_j74758200754433_2_alg».proof.Proof.KernelRun
import proofs.«144242_j74758200754433_2_alg».proof.Proof.RefSums
import Idealize.ShloMosaic.Adequacy
import Idealize.ShloMosaic.Init

noncomputable section

namespace Cert.Proof

open Idealize.ShloMosaic Idealize.SL.Sem

/-- The kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are the closing formula of the same six totals of arguments that agree. -/
theorem algebraic : Cert.algebraic_KernelIdeal_ReferenceIdeal := by
  intro m ρ m' ρ' _ hagree
  refine ⟨fun c => Cert.Pearson.resultK m c, Cert.Pearson.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Pearson.Ref.result_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
